-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000 : Shape := ⟨1, ![1600000]⟩
abbrev S100000x64 : Shape := ⟨2, ![100000, 64]⟩
abbrev S64x64 : Shape := ⟨2, ![64, 64]⟩
abbrev S64 : Shape := ⟨1, ![64]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : IVec S1600000 32) (main_arg1 : IVec S1600000 32) (main_arg2 : FVec F S1600000 .f32) (main_arg3 : FVec F S100000x64 .f32) (main_arg4 : FVec F S64x64 .f32) (main_arg5 : FVec F S64 .f32) : IVec S_ 1 :=
  let main_v0 : FVec F S1600000 .f32 := Host.absf main_arg2
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S1600000 : Shape := ⟨1, ![1600000]⟩
abbrev S100000x64 : Shape := ⟨2, ![100000, 64]⟩
abbrev S64x64 : Shape := ⟨2, ![64, 64]⟩
abbrev S64 : Shape := ⟨1, ![64]⟩
abbrev S10000x64 : Shape := ⟨2, ![10000, 64]⟩
abbrev S1x64 : Shape := ⟨2, ![1, 64]⟩
abbrev S1600000x1 : Shape := ⟨2, ![1600000, 1]⟩
abbrev S_ : Shape := ⟨0, ![]⟩
abbrev S1600000x64 : Shape := ⟨2, ![1600000, 64]⟩

abbrev nBuf : Space → Nat
  | .hbm => 24
  | .vmem => 10
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S1600000, .f32⟩
  | .hbm, ⟨3, _⟩ => ⟨S100000x64, .f32⟩
  | .hbm, ⟨4, _⟩ => ⟨S64x64, .f32⟩
  | .hbm, ⟨5, _⟩ => ⟨S64, .f32⟩
  | .hbm, ⟨6, _⟩ => ⟨S100000x64, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1600000x64, .f32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | _, _ => ⟨S1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S10000x64_S10000x64 : S10000x64.ShapeCasts S10000x64
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg3) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S10000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S1600000 : Shape := ⟨1, ![1600000]⟩
abbrev S100000x64 : Shape := ⟨2, ![100000, 64]⟩
abbrev S64x64 : Shape := ⟨2, ![64, 64]⟩
abbrev S64 : Shape := ⟨1, ![64]⟩
abbrev S1x64 : Shape := ⟨2, ![1, 64]⟩
abbrev S1600000x1 : Shape := ⟨2, ![1600000, 1]⟩
abbrev S_ : Shape := ⟨0, ![]⟩
abbrev S1600000x64 : Shape := ⟨2, ![1600000, 64]⟩

abbrev nBuf : Space → Nat
  | .hbm => 29
  | .vmem => 0
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S1600000, .f32⟩
  | .hbm, ⟨3, _⟩ => ⟨S100000x64, .f32⟩
  | .hbm, ⟨4, _⟩ => ⟨S64x64, .f32⟩
  | .hbm, ⟨5, _⟩ => ⟨S64, .f32⟩
  | .hbm, ⟨6, _⟩ => ⟨S100000x64, .f32⟩
  | .hbm, ⟨7, _⟩ => ⟨S1x64, .f32⟩
  | .hbm, ⟨8, _⟩ => ⟨S100000x64, .f32⟩
  | .hbm, ⟨9, _⟩ => ⟨S100000x64, .f32⟩
  | .hbm, ⟨10, _⟩ => ⟨S1600000x1, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S1600000x64, .f32⟩
  | .hbm, ⟨21, _⟩ => ⟨S1600000x64, .f32⟩
  | .hbm, ⟨22, _⟩ => ⟨S_, .f32⟩
  | .hbm, ⟨23, _⟩ => ⟨S100000x64, .f32⟩
  | .hbm, ⟨24, _⟩ => ⟨S1600000x1, .i32⟩
  | .hbm, ⟨25, _⟩ => ⟨S100000x64, .f32⟩
  | .hbm, ⟨26, _⟩ => ⟨S_, .f32⟩
  | .hbm, ⟨27, _⟩ => ⟨S100000x64, .f32⟩
  | .hbm, ⟨28, _⟩ => ⟨S100000x64, .f32⟩
  | _, _ => ⟨S1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.NamedRun.lean ====
/-
  The idealized kernel program's run with its final memory NAMED: every weakly fair execution of the
  two kernel regions and the host operations between them terminates, nothing faulting, and every
  buffer the regions do not scope ends holding the contents the boundary fold gives it — the launch
  memory, then the first region's write-backs, then the host operations' results, then the second
  region's write-backs. The frame statement keeps only the six argument arrays of that reading; here
  it is kept for every buffer, so that the result array can be read too.
-/
import proofs.«168005_j46875273069088_2_alg».proof.Proof.Gen.KernelIdeal.Frame

set_option maxRecDepth 16384

noncomputable section

namespace Cert.Gcn.NamedRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The same run, read at the result array and the six arguments: the result at the last boundary's
    contents, the arguments as launched. -/
theorem run_result : θ_run defs (onTc (τ := τ) (main (F := F))) ⟨m, fun _ => 0, ρ⟩ (fun r => ∀ c : Dev nD,
      r.2.mem ((c.tc : Thread nD τ).loc main_v14) = W3 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v14 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)
    (run_all m ρ)

end Cert.Gcn.NamedRun

end
-- ==== Proof.Spec.lean ====
/-
  One graph-convolution layer over 100000 nodes with 64 features, written once as functions of the
  argument arrays, index by index, on the extended reals.

  * `dense H W b` is the affine map of the node features: entry (r, q) is ∑ₖ H(r, k) · W(k, q) + b(q),
    the sum over the 64 input features in the order of `Fin 64`.
  * `relu X` is the entrywise maximum with the value of the zero word.

  The sparse aggregation between the two (gather a row per edge, scale it by the edge weight,
  add it into the edge's destination row) is the same chain of host operations in both programs and is
  never opened: it is carried as one function of the dense map's result.
-/
import Idealize.ShloMosaic.PureOps.Ideal
import Idealize.ShloMosaic.Lib.ValueIdx

noncomputable section

namespace Cert.Gcn

open Idealize.ShloMosaic Idealize.ShloMosaic.ValueIdx

/-- Node features: 100000 rows of 64. -/
abbrev Nodes : Shape := ⟨2, ![100000, 64]⟩
/-- The weight matrix, 64 × 64. -/
abbrev Weights : Shape := ⟨2, ![64, 64]⟩
/-- The bias, one entry per output feature. -/
abbrev Bias : Shape := ⟨1, ![64]⟩

/-- The affine map of the node features: entry (r, q) is ∑ₖ H(r, k) · W(k, q) + b(q). -/
def dense (H : Nodes.Idx → EReal) (W : Weights.Idx → EReal) (b : Bias.Idx → EReal) : Nodes.Idx → EReal :=
  fun i => (∑ k : Fin 64, H (ix2 (n0 := 100000) (n1 := 64) (i 0) k) * W (ix2 (n0 := 64) (n1 := 64) k (i 1)))
    + b (ix1 (n := 64) (i 1))

/-- The rectifier, entry by entry: the larger of the entry and the zero word's value. -/
def relu (X : Nodes.Idx → EReal) : Nodes.Idx → EReal :=
  fun i => max (X i) (Ideal.ofBits .f32 0x00000000#32)

end Cert.Gcn

end
-- ==== Proof.Payload.lean ====
/-
  The two kernel bodies' stored values, read at an entry of a block of 10000 rows.

  * The first body stores, for a block X of 10000 rows of H, the matrix product of X and W into a zero
    accumulator plus the bias laid along every row. Changing the float format of X and W is the
    identity on the extended reals, a product into a zero accumulator is the plain sum over the
    contracted axis, and the bias reaches entry (r, q) through the cast [64] → [1, 64] and the row
    broadcast [1, 64] → [10000, 64] as b(q). So entry (r, q) is ∑ₖ X(r, k) · W(k, q) + b(q).
  * The second body stores the entrywise maximum of its block (cast to its own shape, which changes
    nothing) and the splat of the zero word.
-/
import proofs.«168005_j46875273069088_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Gcn.Payload

open Idealize.ShloMosaic Idealize.ShloMosaic.ValueIdx Cert.KernelIdeal Cert.KernelIdeal.Gen

/-- Along the rows the left operand's index follows the result's. -/
theorem lhs_row (i : S10000x64.Idx) (z : dot_S10000x64_S64x64_S10000x64_1_0_0_1_n_n.contr.Idx) :
    (dot_S10000x64_S64x64_S10000x64_1_0_0_1_n_n.lhsIdx i z 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

/-- Along the columns the right operand's index follows the result's. -/
theorem rhs_col (i : S10000x64.Idx) (z : dot_S10000x64_S64x64_S10000x64_1_0_0_1_n_n.contr.Idx) :
    (dot_S10000x64_S64x64_S10000x64_1_0_0_1_n_n.rhsIdx i z 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- The block product into a zero accumulator at (r, q): the sum over the 64 contracted positions of
    X(r, k) · W(k, q). -/
theorem matmul_zero_apply (X : FVec Ideal S10000x64 .bf16) (W : FVec Ideal S64x64 .bf16) (r : Fin 10000) (q : Fin 64) :
    matmul (F := Ideal) dot_S10000x64_S64x64_S10000x64_1_0_0_1_n_n none X W (constant S10000x64 .f32 0x00000000#32) (ix2 r q)
      = ∑ k : Fin 64, X (ix2 r k) * W (ix2 k q) := by
  show FloatOps.matmul dot_S10000x64_S64x64_S10000x64_1_0_0_1_n_n none X W (constant S10000x64 .f32 0x00000000#32) (ix2 r q) = _
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 r q) ((contrEquiv1 dot_S10000x64_S64x64_S10000x64_1_0_0_1_n_n 64 rfl rfl).symm k) = ix2 r k :=
    funext fun a => Fin.ext (by
      match a with
      | ⟨0, _⟩ => exact lhs_row _ _
      | ⟨1, _⟩ => exact (dot_S10000x64_S64x64_S10000x64_1_0_0_1_n_n.lhsIdx_val_of_single rfl _ _).trans hk)
  have er : dot_S10000x64_S64x64_S10000x64_1_0_0_1_n_n.rhsIdx (ix2 r q) ((contrEquiv1 dot_S10000x64_S64x64_S10000x64_1_0_0_1_n_n 64 rfl rfl).symm k) = ix2 k q :=
    funext fun a => Fin.ext (by
      match a with
      | ⟨0, _⟩ => exact (dot_S10000x64_S64x64_S10000x64_1_0_0_1_n_n.rhsIdx_val_of_single rfl _ _).trans hk
      | ⟨1, _⟩ => exact rhs_col _ _)
  rw [el, er]

/-- The bias laid along every row: the cast [64] → [1, 64] followed by the row broadcast reads b(q) at (r, q). -/
theorem bias_rows_apply (b : FVec Ideal S64 .f32) (r : Fin 10000) (q : Fin 64) :
    broadcastTo S10000x64 (shapeCast S1x64 b shapeCasts_S64_S1x64) broadcasts_S1x64_S10000x64 (ix2 r q) = b (ix1 q) := by
  rw [broadcastTo_1b_ab_apply, shapeCast_a_1a_apply]

/-- The first body's stored value at (r, q): ∑ₖ X(r, k) · W(k, q) + b(q). -/
theorem dense_apply (X : Vec Ideal S10000x64 .f32) (W : Vec Ideal S64x64 .f32) (b : Vec Ideal S64 .f32) (r : Fin 10000) (q : Fin 64) :
    k0_pay1 (F := Ideal) X W b (ix2 r q) = (∑ k : Fin 64, X (ix2 r k) * W (ix2 k q)) + b (ix1 q) := by
  unfold k0_pay1
  show matmul (F := Ideal) dot_S10000x64_S64x64_S10000x64_1_0_0_1_n_n none (truncf .bf16 X bitsLt_bf16_f32) (truncf .bf16 W bitsLt_bf16_f32)
      (constant S10000x64 .f32 0x00000000#32) (ix2 r q)
    + broadcastTo S10000x64 (shapeCast S1x64 b shapeCasts_S64_S1x64) broadcasts_S1x64_S10000x64 (ix2 r q) = _
  rw [matmul_zero_apply, bias_rows_apply]
  rfl

/-- The second body's stored value at any entry: the larger of the block's entry and the zero word's value. -/
theorem relu_apply (X : Vec Ideal S10000x64 .f32) (y : S10000x64.Idx) :
    k1_pay1 (F := Ideal) X y = max (X y) (Ideal.ofBits .f32 0x00000000#32) := by
  unfold k1_pay1
  show max (shapeCast S10000x64 X shapeCasts_S10000x64_S10000x64 y) _ = _
  rw [shapeCast_self]
  rfl

end Cert.Gcn.Payload

end
-- ==== Proof.Region0.lean ====
/-
  The first kernel region, whole: after its ten grid points the array it writes holds the affine map
  of the arrays it reads, `dense H W b`.

  Point t reads rows 10000·t … 10000·t + 9999 of H (its block index along the rows is t, along the
  columns 0), all of W and all of b (block index 0 on every axis), and writes back the same rows of the
  result. So what it writes back is that block of rows of `dense H W b`: entry (r, q) of the block is
  ∑ₖ H(10000·t + r, k) · W(k, q) + b(q). Row i of the result lies in the block of point i / 10000, so
  the ten blocks cover the array and it ends holding `dense H W b`.
-/
import proofs.«168005_j46875273069088_2_alg».proof.Proof.Gen.KernelIdeal.Frame
import proofs.«168005_j46875273069088_2_alg».proof.Proof.Spec
import proofs.«168005_j46875273069088_2_alg».proof.Proof.Payload

set_option maxRecDepth 16384

noncomputable section

namespace Cert.Gcn.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- A block entry of the stored value is an entry of the affine map, once the block's rows of X are the
    matching rows of H and the block's W and b are the whole W and b. -/
theorem block_entry (X : Vec Ideal S10000x64 .f32) (W : Vec Ideal S64x64 .f32) (b : Vec Ideal S64 .f32)
    (H' : Nodes.Idx → EReal) (W' : Weights.Idx → EReal) (b' : Bias.Idx → EReal) (j : S10000x64.Idx) (i : Nodes.Idx)
    (hX : ∀ k : Fin 64, X (ix2 (n0 := 10000) (n1 := 64) (j 0) k) = H' (ix2 (n0 := 100000) (n1 := 64) (i 0) k))
    (hW : ∀ k : Fin 64, W (ix2 (n0 := 64) (n1 := 64) k (j 1)) = W' (ix2 (n0 := 64) (n1 := 64) k (i 1)))
    (hb : b (ix1 (n := 64) (j 1)) = b' (ix1 (n := 64) (i 1))) :
    k0_pay1 (F := Ideal) X W b j = dense H' W' b' i :=
  calc k0_pay1 (F := Ideal) X W b j
      = k0_pay1 (F := Ideal) X W b (ix2 (n0 := 10000) (n1 := 64) (j 0) (j 1)) := congrArg (k0_pay1 (F := Ideal) X W b) (eq_ix2 j)
    _ = (∑ k : Fin 64, X (ix2 (n0 := 10000) (n1 := 64) (j 0) k) * W (ix2 (n0 := 64) (n1 := 64) k (j 1))) + b (ix1 (n := 64) (j 1)) :=
        Payload.dense_apply X W b (j 0) (j 1)
    _ = dense H' W' b' i := by
        unfold dense
        rw [hb]
        exact congrArg (· + b' (ix1 (n := 64) (i 1))) (Finset.sum_congr rfl fun k _ => by rw [hX k, hW k])

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the ten points: the block of H moves with the result's along the rows,
    everything else stays at block 0. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 1) = 0
    ∧ win0_3.index t (1 : Fin 2) = 0
    ∧ win0_3.index t (0 : Fin 2) ≤ 9 :=
  (by decide +kernel : ∀ t : Fin grid0.N, _)

/-- Every block of rows is some point's. -/
theorem idx_onto : ∀ (q0 : Fin 10), ∃ t : Fin cfg0.N, win0_3.index t = ![q0.val, 0] :=
  (by decide +kernel : ∀ (q0 : Fin 10), ∃ t : Fin grid0.N, win0_3.index t = ![q0.val, 0])

/-- What point t writes back is its block of rows of the affine map of the arrays the region reads. -/
theorem flushed_eq (c : Dev nD) (t : Fin cfg0.N) :
    (dat0 V c).flushed 3 t = ((cfg0.win 3).blk t).view.read (Elt Ideal) (dense (V c main_arg3) (V c main_arg4) (V c main_arg5)) := by
  show (cfg0.win 3).cut (grid0.coords t) ((dat0 V c).after 3 t) = _
  rw [after0_3]
  unfold out0_3
  rw [View.canon_unit_zero hz2]
  simp only [View.ld_unit_zero (S := S10000x64) hz2, View.ld_unit_zero (S := S64x64) hz2, View.ld_unit_zero (S := S64) hz1]
  obtain ⟨e0, e1, e2, e3, e4, e5, e6⟩ := idx_facts t
  funext j
  refine block_entry (iblk0 V c 0 t) (iblk0 V c 1 t) (iblk0 V c 2 t) (V c main_arg3) (V c main_arg4) (V c main_arg5) j
    (((cfg0.win 3).blk t).view.emb j) (fun k => ?_) (fun k => ?_) ?_
  · show V c main_arg3 (((cfg0.win 0).blk t).view.emb (ix2 (n0 := 10000) (n1 := 64) (j 0) k))
      = V c main_arg3 (ix2 (n0 := 100000) (n1 := 64) ((((cfg0.win 3).blk t).view.emb j) 0) k)
    refine congrArg (V c main_arg3) (funext fun a => Fin.ext ?_)
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 64 + 1 * k.val = k.val; omega
  · show V c main_arg4 (((cfg0.win 1).blk t).view.emb (ix2 (n0 := 64) (n1 := 64) k (j 1)))
      = V c main_arg4 (ix2 (n0 := 64) (n1 := 64) k ((((cfg0.win 3).blk t).view.emb j) 1))
    refine congrArg (V c main_arg4) (funext fun a => Fin.ext ?_)
    match a with
    | ⟨0, _⟩ => show win0_1.index t (0 : Fin 2) * 64 + 1 * k.val = k.val; omega
    | ⟨1, _⟩ => show win0_1.index t (1 : Fin 2) * 64 + 1 * (j 1).val = win0_3.index t (1 : Fin 2) * 64 + 1 * (j 1).val; omega
  · show V c main_arg5 (((cfg0.win 2).blk t).view.emb (ix1 (n := 64) (j 1)))
      = V c main_arg5 (ix1 (n := 64) ((((cfg0.win 3).blk t).view.emb j) 1))
    refine congrArg (V c main_arg5) (funext fun a => Fin.ext ?_)
    match a with
    | ⟨0, _⟩ => show win0_2.index t (0 : Fin 1) * 64 + 1 * (j 1).val = win0_3.index t (1 : Fin 2) * 64 + 1 * (j 1).val; omega

/-- A row-and-column position lies in point t's block iff each coordinate is in the block's range on its axis. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v0).slice (win0_3.rect t)).set ↔ _
  rw [View.set_slice_whole, Rect.mem_set_unit]
  exact Iff.rfl

/-- Every position of the result is in the block of the point its row falls to: row i belongs to point i / 10000. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := idx_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- The array the first region writes ends holding the affine map of the arrays it reads. -/
theorem final (c : Dev nD) :
    (dat0 V c).arrAt 3 cfg0.N = dense (V c main_arg3) (V c main_arg4) (V c main_arg5) :=
  (dat0 V c).arrAt_eq_of_cover 3 (dense (V c main_arg3) (V c main_arg4) (V c main_arg5)) (fun t _ => flushed_eq V c t) cover

end Cert.Gcn.Region0

end
-- ==== Proof.Region1.lean ====
/-
  The second kernel region, whole: after its ten grid points the array it writes holds the rectifier
  of the array it reads, entry by entry.

  Point t reads rows 10000·t … 10000·t + 9999 of its input and writes back the same rows of the
  result, each entry the larger of the input's entry and the zero word's value; row i lies in the block
  of point i / 10000, so the ten blocks cover the array.
-/
import proofs.«168005_j46875273069088_2_alg».proof.Proof.Gen.KernelIdeal.Frame
import proofs.«168005_j46875273069088_2_alg».proof.Proof.Spec
import proofs.«168005_j46875273069088_2_alg».proof.Proof.Payload

set_option maxRecDepth 16384

noncomputable section

namespace Cert.Gcn.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- A block entry of the stored value is an entry of the rectifier of A, once the block's entry is A's. -/
theorem block_entry (X : Vec Ideal S10000x64 .f32) (A : Nodes.Idx → EReal) (j : S10000x64.Idx) (i : Nodes.Idx) (h : X j = A i) :
    k1_pay1 (F := Ideal) X j = relu A i :=
  (Payload.relu_apply X j).trans (by unfold relu; rw [h])

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the ten points: the input's block is the result's. -/
theorem idx_facts : ∀ t : Fin cfg1.N, win1_0.index t (0 : Fin 2) = win1_1.index t (0 : Fin 2)
    ∧ win1_0.index t (1 : Fin 2) = win1_1.index t (1 : Fin 2)
    ∧ win1_1.index t (1 : Fin 2) = 0
    ∧ win1_1.index t (0 : Fin 2) ≤ 9 :=
  (by decide +kernel : ∀ t : Fin grid1.N, _)

/-- Every block of rows is some point's. -/
theorem idx_onto : ∀ (q0 : Fin 10), ∃ t : Fin cfg1.N, win1_1.index t = ![q0.val, 0] :=
  (by decide +kernel : ∀ (q0 : Fin 10), ∃ t : Fin grid1.N, win1_1.index t = ![q0.val, 0])

/-- What point t writes back is its block of rows of the rectifier of the array the region reads. -/
theorem flushed_eq (c : Dev nD) (t : Fin cfg1.N) :
    (dat1 V c).flushed 1 t = ((cfg1.win 1).blk t).view.read (Elt Ideal) (relu (V c main_v13)) := by
  show (cfg1.win 1).cut (grid1.coords t) ((dat1 V c).after 1 t) = _
  rw [after1_1]
  unfold out1_1
  rw [View.canon_unit_zero hz2]
  simp only [View.ld_unit_zero (S := S10000x64) hz2]
  obtain ⟨e0, e1, e2, e3⟩ := idx_facts t
  funext j
  refine block_entry (iblk1 V c 0 t) (V c main_v13) j (((cfg1.win 1).blk t).view.emb j) ?_
  show V c main_v13 (((cfg1.win 0).blk t).view.emb j) = V c main_v13 (((cfg1.win 1).blk t).view.emb j)
  have h0 : ((cfg1.win 0).blk t).view.emb j = ((cfg1.win 1).blk t).view.emb j := by
    funext a; apply Fin.ext
    match a with
    | ⟨0, _⟩ => show win1_0.index t (0 : Fin 2) * 10000 + 1 * (j 0).val = win1_1.index t (0 : Fin 2) * 10000 + 1 * (j 0).val; omega
    | ⟨1, _⟩ => show win1_0.index t (1 : Fin 2) * 64 + 1 * (j 1).val = win1_1.index t (1 : Fin 2) * 64 + 1 * (j 1).val; omega
  rw [h0]

/-- A row-and-column position lies in point t's block iff each coordinate is in the block's range on its axis. -/
theorem mem_blk (t : Fin cfg1.N) (i : S100000x64.Idx) :
    i ∈ ((cfg1.win 1).blk t).view.set ↔ ∀ a : Fin 2, win1_1.index t a * S10000x64.size a ≤ (i a).val ∧ (i a).val < win1_1.index t a * S10000x64.size a + S10000x64.size a := by
  show i ∈ ((View.whole main_v14).slice (win1_1.rect t)).set ↔ _
  rw [View.set_slice_whole, Rect.mem_set_unit]
  exact Iff.rfl

/-- Every position of the result is in the block of the point its row falls to. -/
theorem cover (i : S100000x64.Idx) :
    ∃ t : Fin cfg1.N, (cfg1.win 1).flush t = true ∧ i ∈ ((cfg1.win 1).blk t).view.set := by
  have hi0 : (i 0).val < 100000 := (i 0).isLt
  have hi1 : (i 1).val < 64 := (i 1).isLt
  obtain ⟨t, ht⟩ := idx_onto ⟨(i 0).val / 10000, by omega⟩
  have q0 : win1_1.index t (0 : Fin 2) = (i 0).val / 10000 := congrFun ht 0
  have q1 : win1_1.index t (1 : Fin 2) = 0 := congrFun ht 1
  refine ⟨t, flush1_1 t, ?_⟩
  rw [mem_blk]
  intro a
  match a with
  | ⟨0, _⟩ => show win1_1.index t (0 : Fin 2) * 10000 ≤ (i 0).val ∧ (i 0).val < win1_1.index t (0 : Fin 2) * 10000 + 10000; omega
  | ⟨1, _⟩ => show win1_1.index t (1 : Fin 2) * 64 ≤ (i 1).val ∧ (i 1).val < win1_1.index t (1 : Fin 2) * 64 + 64; omega

/-- The array the second region writes ends holding the rectifier of the array it reads. -/
theorem final (c : Dev nD) : (dat1 V c).arrAt 1 cfg1.N = relu (V c main_v13) :=
  (dat1 V c).arrAt_eq_of_cover 1 (relu (V c main_v13)) (fun t _ => flushed_eq V c t) cover

end Cert.Gcn.Region1

end
-- ==== Proof.Aggregate.lean ====
/-
  The sparse aggregation between the affine map and the rectifier, as ONE function of the edge arrays
  and of the array X it aggregates: out(r, ·) = ∑ over the edges e with rows(e) = r of
  vals(e) · X(cols(e), ·), as the host spells it — a negative column index is first moved up by the
  number of nodes, the row X(cols(e), ·) is gathered, scaled by vals(e), and added into a zero array at
  row rows(e). Both programs apply exactly this chain of host operations; it is stated here once and
  never opened.
-/
import proofs.«168005_j46875273069088_2_alg».proof.Proof.Gen.KernelIdeal
import Idealize.ShloMosaic.PureOps.Ideal

noncomputable section

namespace Cert.Gcn

open Idealize.ShloMosaic Cert.KernelIdeal Cert.KernelIdeal.Gen

/-- Gather a row of X per edge, scale it by the edge's weight, add it into the edge's destination row of a zero array. -/
def aggregate (rows cols : (⟨S1600000, .i32⟩ : BufTy).Contents (Elt Ideal)) (vals : (⟨S1600000, .f32⟩ : BufTy).Contents (Elt Ideal))
    (X : (⟨S100000x64, .f32⟩ : BufTy).Contents (Elt Ideal)) : (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 rows)
    (mulf (F := Ideal) (broadcastInDim S1600000x64 ![0, 1] bcast_S1600000x1_S1600000x64_0_1 (broadcastInDim S1600000x1 ![0] bcast_S1600000_S1600000x1_0 vals))
      (Host.gather gather_S100000x64_S1600000x1_S1600000x64_1_0_n_n_0_1_164 X
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 100000#32))) cols))))

end Cert.Gcn

end
-- ==== Proof.KernelValue.lean ====
/-
  The idealized kernel program's result array, as one function of its arguments.

  Reading the boundary fold backwards from the result: the second region leaves the rectifier of the
  array it reads; that array is what the host operations between the regions leave, the sparse
  aggregation of the first region's result over the edge arrays (which nothing has written since
  launch); and the first region's result is the affine map of H, W and b as launched. So the result is
  relu (aggregate rows cols vals (dense H W b)).
-/
import proofs.«168005_j46875273069088_2_alg».proof.Proof.NamedRun
import proofs.«168005_j46875273069088_2_alg».proof.Proof.Region0
import proofs.«168005_j46875273069088_2_alg».proof.Proof.Region1
import proofs.«168005_j46875273069088_2_alg».proof.Proof.Aggregate
import Idealize.ShloMosaic.Lib.StableHlo.Run

set_option maxRecDepth 16384

noncomputable section

namespace Cert.Gcn.KernelValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- What the host operations between the regions leave in the second region's input: the aggregation of
    the first region's result over the edge arrays, each read where the first region left it. -/
theorem between (c : Dev nD) :
    W2 m ρ c (Proc.devRef .tc main_v13)
      = aggregate (W1 m ρ c (Proc.devRef .tc main_arg0)) (W1 m ρ c (Proc.devRef .tc main_arg1)) (W1 m ρ c (Proc.devRef .tc main_arg2))
          (W1 m ρ c (Proc.devRef .tc main_v0)) := by
  show StableHlo.after hostOps1 (W1 m ρ c) (Proc.devRef .tc main_v13) = _
  after_results
  rfl

/-- The edge arrays and the dense map's operands are not written by the first region: where it leaves
    them they hold their launch contents. -/
theorem W1_arg0 (c : Dev nD) : W1 m ρ c (Proc.devRef .tc main_arg0) = m ((c : Thread nD τ).loc main_arg0) :=
  W1_of_ne m ρ c main_arg0 (by decide)
theorem W1_arg1 (c : Dev nD) : W1 m ρ c (Proc.devRef .tc main_arg1) = m ((c : Thread nD τ).loc main_arg1) :=
  W1_of_ne m ρ c main_arg1 (by decide)
theorem W1_arg2 (c : Dev nD) : W1 m ρ c (Proc.devRef .tc main_arg2) = m ((c : Thread nD τ).loc main_arg2) :=
  W1_of_ne m ρ c main_arg2 (by decide)

/-- The first region's result, where the host operations find it, is the affine map of H, W and b as launched. -/
theorem W1_dense (c : Dev nD) :
    W1 m ρ c (Proc.devRef .tc main_v0)
      = dense (m ((c : Thread nD τ).loc main_arg3)) (m ((c : Thread nD τ).loc main_arg4)) (m ((c : Thread nD τ).loc main_arg5)) :=
  (W1_arr m ρ c 3).trans (Region0.final (V0 m ρ) c)

/-- The kernel program's result array at the last boundary: relu (aggregate rows cols vals (dense H W b)) of the
    arguments as launched. -/
theorem result (c : Dev nD) :
    W3 m ρ c (Proc.devRef .tc main_v14)
      = relu (aggregate (m ((c : Thread nD τ).loc main_arg0)) (m ((c : Thread nD τ).loc main_arg1)) (m ((c : Thread nD τ).loc main_arg2))
          (dense (m ((c : Thread nD τ).loc main_arg3)) (m ((c : Thread nD τ).loc main_arg4)) (m ((c : Thread nD τ).loc main_arg5)))) := by
  refine (W3_arr m ρ c 1).trans ((Region1.final (V2 m ρ) c).trans (congrArg relu ?_))
  show W2 m ρ c (Proc.devRef .tc main_v13) = _
  rw [between, W1_arg0, W1_arg1, W1_arg2, W1_dense]

end Cert.Gcn.KernelValue

end
-- ==== Proof.RefStages.lean ====
/-
  The reference's first and last stages are the specification's two functions.

  * Its matrix product of H and W on the host is, entry by entry, the sum over the contracted axis, and
    its bias, broadcast first to one row and then to every row, reads b(q) at (r, q): the stage is
    `dense H W b`.
  * Its rectifier is the entrywise maximum with a splat of the zero word: `relu`.
-/
import proofs.«168005_j46875273069088_2_alg».proof.Proof.Gen.ReferenceIdeal.Read
import proofs.«168005_j46875273069088_2_alg».proof.Proof.Spec

noncomputable section

namespace Cert.Gcn.RefStages

open Idealize.ShloMosaic Idealize.ShloMosaic.ValueIdx
open Cert.ReferenceIdeal Cert.ReferenceIdeal.Gen Cert.ReferenceIdeal.Read

/-- The host's product plus the broadcast bias is the affine map, entry by entry. -/
theorem dense_eq (H : (⟨S100000x64, .f32⟩ : BufTy).Contents (Elt Ideal)) (W : (⟨S64x64, .f32⟩ : BufTy).Contents (Elt Ideal))
    (b : (⟨S64, .f32⟩ : BufTy).Contents (Elt Ideal)) :
    val_main_v3 (F := Ideal) H W b = dense H W b := by
  funext i
  rw [val_main_v3_apply, val_main_v0_apply, val_main_v2_apply, val_main_v1_apply]
  have el : ∀ k : Fin 64, lidx_main_v0 i k = ix2 (n0 := 100000) (n1 := 64) (i 0) k := fun k =>
    funext fun a => by match a with | ⟨0, _⟩ => rfl | ⟨1, _⟩ => rfl
  have er : ∀ k : Fin 64, ridx_main_v0 i k = ix2 (n0 := 64) (n1 := 64) k (i 1) := fun k =>
    funext fun a => by match a with | ⟨0, _⟩ => rfl | ⟨1, _⟩ => rfl
  have eb : idx_main_v1 (idx_main_v2 i) = ix1 (n := 64) (i 1) :=
    funext fun a => by match a with | ⟨0, _⟩ => rfl
  unfold dense
  rw [eb]
  exact congrArg (· + b (ix1 (n := 64) (i 1))) (Finset.sum_congr rfl fun k _ => by rw [el k, er k])

/-- The host's maximum with a splat of the zero word is the rectifier. -/
theorem relu_eq (X : (⟨S100000x64, .f32⟩ : BufTy).Contents (Elt Ideal)) :
    maximumf (F := Ideal) (s := S100000x64) (φ := .f32) X (val_main_call0_v0 (F := Ideal)) = relu X := by
  funext i
  show max (X i) (val_main_call0_v0 (F := Ideal) i) = max (X i) (Ideal.ofBits .f32 0x00000000#32)
  rw [val_main_call0_v0_apply]
  rfl

end Cert.Gcn.RefStages

end
-- ==== Proof.RefValue.lean ====
/-
  The reference's result array, as one function of its arguments: the rectifier of the sparse
  aggregation of the affine map, relu (aggregate rows cols vals (dense H W b)) — the same three
  functions the kernel program's result is made of. Its last stage is the rectifier, its first four the
  affine map, and the operations between them are the aggregation's chain, operation for operation.
-/
import proofs.«168005_j46875273069088_2_alg».proof.Proof.RefStages
import proofs.«168005_j46875273069088_2_alg».proof.Proof.Aggregate

noncomputable section

namespace Cert.Gcn.RefValue

open Idealize.ShloMosaic
open Cert.ReferenceIdeal Cert.ReferenceIdeal.Gen Cert.ReferenceIdeal.Read

/-- The reference's stages between the affine map and the rectifier are the aggregation. -/
theorem aggregate_eq (x0 x1 : (⟨S1600000, .i32⟩ : BufTy).Contents (Elt Ideal)) (x2 : (⟨S1600000, .f32⟩ : BufTy).Contents (Elt Ideal))
    (x3 : (⟨S100000x64, .f32⟩ : BufTy).Contents (Elt Ideal)) (x4 : (⟨S64x64, .f32⟩ : BufTy).Contents (Elt Ideal)) (x5 : (⟨S64, .f32⟩ : BufTy).Contents (Elt Ideal)) :
    val_main_v16 (F := Ideal) x0 x1 x2 x3 x4 x5 = aggregate x0 x1 x2 (val_main_v3 (F := Ideal) x3 x4 x5) := rfl

/-- The reference's last stage is relu (aggregate rows cols vals (dense H W b)). -/
theorem result_eq (x0 x1 : (⟨S1600000, .i32⟩ : BufTy).Contents (Elt Ideal)) (x2 : (⟨S1600000, .f32⟩ : BufTy).Contents (Elt Ideal))
    (x3 : (⟨S100000x64, .f32⟩ : BufTy).Contents (Elt Ideal)) (x4 : (⟨S64x64, .f32⟩ : BufTy).Contents (Elt Ideal)) (x5 : (⟨S64, .f32⟩ : BufTy).Contents (Elt Ideal)) :
    val_main_v17 (F := Ideal) x0 x1 x2 x3 x4 x5 = relu (aggregate x0 x1 x2 (dense x3 x4 x5)) := by
  show maximumf (F := Ideal) (s := S100000x64) (φ := .f32) (val_main_v16 (F := Ideal) x0 x1 x2 x3 x4 x5) (val_main_call0_v0 (F := Ideal)) = _
  rw [RefStages.relu_eq, aggregate_eq, RefStages.dense_eq]

end Cert.Gcn.RefValue

end
-- ==== Proof.lean ====
/-
  One graph-convolution layer, kernel against reference, on the extended reals.

  Both programs compute, for node features H (100000 × 64), weights W (64 × 64), bias b (64) and a sparse
  adjacency given by its edges (rows, cols, vals; 1600000 of them),

      relu (aggregate rows cols vals (dense H W b)),

  where `dense H W b` has entry (r, q) = ∑ₖ H(r, k) · W(k, q) + b(q), `aggregate` gathers row cols(e) per
  edge e, scales it by vals(e) and adds it into row rows(e) of a zero array, and `relu` is the entrywise
  maximum with zero.

  The kernel program computes `dense` in a first region of ten blocks of 10000 rows — a matrix product of
  each block with W into a zero accumulator, its operands first narrowed to a shorter float format, which
  on the extended reals changes nothing, plus the bias laid along every row —, runs the aggregation on the
  host, and applies the rectifier in a second region of ten blocks. The reference computes `dense` as one
  host matrix product plus a broadcast bias, runs the same host aggregation, and applies the host's
  maximum with a splat of zero. A product into a zero accumulator and the host's product are the same sum
  over the 64 contracted positions, in the same order; the aggregation is literally the same chain of
  host operations, applied to equal arrays, and is never opened; so the two results agree entry by entry,
  and no law of the extended reals that would need the inputs finite is used.

  The three frames are the generated ones (the reference's is its run with the result dropped); the
  idealization rewrote nothing, so `preserves` is trivial.
-/
import proofs.«168005_j46875273069088_2_alg».proof.Defs
import proofs.«168005_j46875273069088_2_alg».proof.Proof.Gen.Kernel
import proofs.«168005_j46875273069088_2_alg».proof.Proof.Gen.Kernel.Skeleton
import proofs.«168005_j46875273069088_2_alg».proof.Proof.Gen.Kernel.Launch
import proofs.«168005_j46875273069088_2_alg».proof.Proof.Gen.Kernel.Points
import proofs.«168005_j46875273069088_2_alg».proof.Proof.Gen.Kernel.Frame
import proofs.«168005_j46875273069088_2_alg».proof.Proof.Gen.KernelIdeal
import proofs.«168005_j46875273069088_2_alg».proof.Proof.Gen.KernelIdeal.Skeleton
import proofs.«168005_j46875273069088_2_alg».proof.Proof.Gen.KernelIdeal.Launch
import proofs.«168005_j46875273069088_2_alg».proof.Proof.Gen.KernelIdeal.Points
import proofs.«168005_j46875273069088_2_alg».proof.Proof.Gen.KernelIdeal.Frame
import proofs.«168005_j46875273069088_2_alg».proof.Proof.Gen.ReferenceIdeal
import proofs.«168005_j46875273069088_2_alg».proof.Proof.Gen.ReferenceIdeal.Run
import proofs.«168005_j46875273069088_2_alg».proof.Proof.Gen.ReferenceIdeal.Read
import proofs.«168005_j46875273069088_2_alg».proof.Proof.Gen.Pre_finite_inputs
import proofs.«168005_j46875273069088_2_alg».proof.Proof.KernelValue
import proofs.«168005_j46875273069088_2_alg».proof.Proof.RefValue
import Idealize.ShloMosaic.Adequacy
import Idealize.ShloMosaic.Init

noncomputable section

namespace Cert.Proof

open Idealize.ShloMosaic Idealize.SL.Sem Cert.Gcn

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with relu (aggregate rows cols vals (dense H W b)) of the arguments they agree on. -/
theorem algebraic : Cert.algebraic_KernelIdeal_ReferenceIdeal := by
  intro m ρ m' ρ' _ hagree
  refine ⟨fun c => relu (aggregate
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (dense (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)))), ?_, ?_⟩
  · exact (θ_run Cert.KernelIdeal.defs _ _).mono
      (fun r h c => ⟨(h c).1.trans (KernelValue.result m ρ c), (h c).2⟩) (NamedRun.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v17_eq, RefValue.result_eq, (hagree c).1, (hagree c).2.1, (hagree c).2.2.1,
      (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
